-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S8192x512 .f32) (main_arg1 : FVec F S512 .f32) (main_arg2 : FVec F S512x1 .f32) (main_arg3 : FVec F S1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S8192x512 : Shape := ⟨2, ![8192, 512]⟩
abbrev S512 : Shape := ⟨1, ![512]⟩
abbrev S512x1 : Shape := ⟨2, ![512, 1]⟩
abbrev S1 : Shape := ⟨1, ![1]⟩
abbrev S8192x8192 : Shape := ⟨2, ![8192, 8192]⟩
abbrev S1024x512 : Shape := ⟨2, ![1024, 512]⟩
abbrev S1024x1024 : Shape := ⟨2, ![1024, 1024]⟩
abbrev S1x512 : Shape := ⟨2, ![1, 512]⟩
abbrev S1024 : Shape := ⟨1, ![1024]⟩
abbrev S1024x1 : Shape := ⟨2, ![1024, 1]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S512x1, .f32⟩
  | .hbm, ⟨3, _⟩ => ⟨S1, .f32⟩
  | .hbm, ⟨4, _⟩ => ⟨S8192x512, .bf16⟩
  | .hbm, ⟨5, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S512, .f32⟩
  | .local _ .vmem, ⟨5, _⟩ => ⟨S512x1, .f32⟩
  | .local _ .vmem, ⟨6, _⟩ => ⟨S1, .f32⟩
  | .local _ .vmem, ⟨7, _⟩ => ⟨S1024x1024, .f32⟩
  | .local _ .vmem, ⟨8, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let arg1 : BitVec 32 := BitVec.ofNat 32 (i 1).val
  let v9 : BitVec 1 := Scalar.cmpi .eq arg0 arg1
  let v10 : BitVec 32 := Scalar.extui v9
  let c0_i32 : BitVec 32 := 0#32
  let v11 : BitVec 1 := Scalar.cmpi .ne v10 c0_i32
  v11

def k0_cond2 (i : grid0.Coords) : BitVec 1 :=
  let arg0 : BitVec 32 := BitVec.ofNat 32 (i 0).val
  let arg1 : BitVec 32 := BitVec.ofNat 32 (i 1).val
  let v12 : BitVec 1 := Scalar.cmpi .ne arg0 arg1
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x1_S512x1_0_0 : ∀ a, (![0, 0] : Fin 2 → Nat) a + S512x1.size a ≤ S512x1.size a
  h_S512x1 : 0 < S512x1.numel
  inb_S1_S1_0 : ∀ a, (![0] : Fin 1 → Nat) a + S1.size a ≤ S1.size a
  h_S1 : 0 < S1.numel
  shapeCasts_S512x1_S512 : S512x1.ShapeCasts S512
  reduces_S1024x512_S1024 : S1024x512.Reduces [1] S1024
  shapeCasts_S1024_S1024x1 : S1024.ShapeCasts S1024x1
  inpos_S1_p0 : ∀ a, (![0] : Fin 1 → Nat) a < S1.size a
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x8192.size a
  hwx0_5 : ∀ i : grid0.Coords, EltTy.bits .f32 = 32 ∨ (Rect.block (s := S8192x8192) S1024x1024.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S8192x8192 : Shape := ⟨2, ![8192, 8192]⟩
abbrev S8192x1 : Shape := ⟨2, ![8192, 1]⟩
abbrev S1x1 : Shape := ⟨2, ![1, 1]⟩
abbrev S_ : Shape := ⟨0, ![]⟩
abbrev S8192 : Shape := ⟨1, ![8192]⟩
abbrev S8192x2 : Shape := ⟨2, ![8192, 2]⟩

abbrev nBuf : Space → Nat
  | .hbm => 49
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S512x1, .f32⟩
  | .hbm, ⟨3, _⟩ => ⟨S1, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S8192x8192, .f32⟩
  | .hbm, ⟨8, _⟩ => ⟨S8192x1, .f32⟩
  | .hbm, ⟨9, _⟩ => ⟨S1x1, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .i1⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192, .f32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192x1, .i32⟩
  | .hbm, ⟨47, _⟩ => ⟨S8192x2, .i32⟩
  | .hbm, ⟨48, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  dot_S8192x512_S8192x512_S8192x8192_1_1_0_0_n_n_wf : DotDims.WF S8192x512 S8192x512 S8192x8192 [1] [1] [0] [0] [] []
  dot_S8192x512_S512x1_S8192x1_1_0_0_1_n_n_wf : DotDims.WF S8192x512 S512x1 S8192x1 [1] [0] [0] [1] [] []
  scatter_S8192x8192_S8192x2_S8192_n_01_01_1_wf : ScatterDims.WF S8192x8192 S8192x2 S8192 [] [0, 1] [0, 1] 1

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.BodyBits.lean ====
/-
  The pipelined body of the covariance kernel, one grid point at a time.

  The grid is 8 x 8 blocks of 1024 x 1024 entries. At every point the body loads the row block, the column block and the
  weights, forms the weighted product of the two blocks, and stores ONE whole output block: on a diagonal point (block row =
  block column) the product with its own diagonal replaced by the softplus column, off the diagonal the product itself.
  Exactly one of the two branches is taken at every point, so the output block is always stored whole and is always
  written back; the inputs are only read. This file states what each staging buffer holds after the body at each point,
  runs the body symbolically in the two cases, and hands the result to the pipeline's launch theorem: the program runs to
  the end, faults nowhere and leaves its argument arrays as it found them, and the output array ends at what the launch
  theorem assembles from the blocks written back.
-/
import proofs.«179888_j51350628991246_2_alg».proof.Proof.Gen.Kernel.Frame
import proofs.«179888_j51350628991246_2_alg».proof.Proof.Gen.Kernel.Skeleton
import Idealize.ShloMosaic.Lib.Pipeline.Frame
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branches exclude each other -/

/-- At every grid point exactly one of "block row = block column" and "block row ≠ block column" holds (decided over
    the 64 points). -/
theorem offdiag_iff : ∀ t : Fin cfg0.N, k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1)

/-- Every load and store of the body starts at offset zero. -/
theorem hz2 : (![0, 0] : Fin 2 → Nat) = fun _ => 0 := by
  funext a; match a with | ⟨0, _⟩ => rfl | ⟨1, _⟩ => rfl
theorem hz1 : (![0] : Fin 1 → Nat) = fun _ => 0 := by
  funext a; match a with | ⟨0, _⟩ => rfl

/-! ## The body's triple in the two cases -/

set_option maxHeartbeats 2000000 in
/-- On whole staging memrefs — the five inputs' at their contents, the output's at anything — the body at a diagonal
    point runs to the continuation holding the inputs' as they were and the output's at the product block with its
    diagonal replaced by the softplus column (the second payload). -/
theorem sound_diag (c : Dev nD) (E : Set ℕ) (i : grid0.Coords) (h1 : k0_cond1 i = 1#1) (h2 : ¬ k0_cond2 i = 1#1)
    (arg2 : Memref sig .tc .vmem S1024x512 .f32) (harg2 : arg2.IsWhole) (arg3 : Memref sig .tc .vmem S1024x512 .bf16) (harg3 : arg3.IsWhole)
    (arg4 : Memref sig .tc .vmem S512 .f32) (harg4 : arg4.IsWhole) (arg5 : Memref sig .tc .vmem S512x1 .f32) (harg5 : arg5.IsWhole)
    (arg6 : Memref sig .tc .vmem S1 .f32) (harg6 : arg6.IsWhole) (arg7 : Memref sig .tc .vmem S1024x1024 .f32) (harg7 : arg7.IsWhole)
    (x0 : Vec F S1024x512 .f32) (x1 : Vec F S1024x512 .bf16) (x2 : Vec F S512 .f32) (x3 : Vec F S512x1 .f32) (x4 : Vec F S1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay2 x0 x1 x2 x3 x4)) -∗ K ⟨⟩))
      ⊢ wp frame (wpE (defs₀ (F := F)) Variants.none c none) E
          (cc0__cov_kernel i arg2 harg2 arg3 harg3 arg4 harg4 arg5 harg5 arg6 harg6 arg7 harg7) K := by
  simp only [cc0__cov_kernel_eq_skeleton]; unfold cc0__cov_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _, View.mem_set_unit_zero hz2 Facts₀.inb_S1024x1024_S1024x1024_0_0 y⟩),
    View.canon_unit_zero hz2]
  simp only [View.readAt_eq_ld, View.ld_unit_zero (S := S1024x512) hz2, View.ld_unit_zero (S := S512) hz1,
    View.ld_unit_zero (S := S512x1) hz2, View.ld_unit_zero (S := S1) hz1]

set_option maxHeartbeats 2000000 in
/-- The same off the diagonal: the output's memref ends at the product block (the first payload). -/
theorem sound_off (c : Dev nD) (E : Set ℕ) (i : grid0.Coords) (h1 : ¬ k0_cond1 i = 1#1) (h2 : k0_cond2 i = 1#1)
    (arg2 : Memref sig .tc .vmem S1024x512 .f32) (harg2 : arg2.IsWhole) (arg3 : Memref sig .tc .vmem S1024x512 .bf16) (harg3 : arg3.IsWhole)
    (arg4 : Memref sig .tc .vmem S512 .f32) (harg4 : arg4.IsWhole) (arg5 : Memref sig .tc .vmem S512x1 .f32) (harg5 : arg5.IsWhole)
    (arg6 : Memref sig .tc .vmem S1 .f32) (harg6 : arg6.IsWhole) (arg7 : Memref sig .tc .vmem S1024x1024 .f32) (harg7 : arg7.IsWhole)
    (x0 : Vec F S1024x512 .f32) (x1 : Vec F S1024x512 .bf16) (x2 : Vec F S512 .f32) (x3 : Vec F S512x1 .f32) (x4 : Vec F S1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay1 x0 x1 x2)) -∗ K ⟨⟩))
      ⊢ wp frame (wpE (defs₀ (F := F)) Variants.none c none) E
          (cc0__cov_kernel i arg2 harg2 arg3 harg3 arg4 harg4 arg5 harg5 arg6 harg6 arg7 harg7) K := by
  simp only [cc0__cov_kernel_eq_skeleton]; unfold cc0__cov_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _, View.mem_set_unit_zero hz2 Facts₀.inb_S1024x1024_S1024x1024_0_0 y⟩),
    View.canon_unit_zero hz2]
  simp only [View.readAt_eq_ld, View.ld_unit_zero (S := S1024x512) hz2, View.ld_unit_zero (S := S512) hz1]

/-! ## What the staging buffers hold after each point -/

/-- The output block the body leaves at point `t`: on the diagonal the product with the softplus diagonal, elsewhere the
    product, of the windows' blocks at `t`. -/
def outAt (c : Dev nD) (t : Fin cfg0.N) : Vec F S1024x1024 .f32 :=
  if k0_cond1 (grid0.coords t) = 1#1 then
    k0_pay2 (iblk m c 0 t) (iblk m c 1 t) (iblk m c 2 t) (iblk m c 3 t) (iblk m c 4 t)
  else k0_pay1 (iblk m c 0 t) (iblk m c 1 t) (iblk m c 2 t)

/-- The pipeline's proof data on core `c`: the arrays as the region finds them; after the body at point `t` every input
    buffer at its block and the output's at `outAt`; the body keeps nothing between points and owes nothing. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

/-- Every input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the output block is written back at every point, so its buffer is handed back at the stated
    contents at every point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

/-- Where the block is written back the buffer is handed back at the stated contents. -/
theorem leaves5 (c : Dev nD) (t : Fin cfg0.N) :
    (dats m 0 c).leavesExact 5 t = owns (c : Thread nD τ) (st0_5 t) fullShare ((dats m 0 c).after 5 t) := by
  unfold Dat.leavesExact
  rw [flush0_5 t]
  cases cfg0.idle 5 (cfg0.grid.coords t) <;> rfl

set_option maxHeartbeats 800000 in
/-- The body at any point: the inputs' memrefs hold their blocks; the point is on the diagonal or off it, and the
    matching triple applies; nothing else is touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, leaves5, after0_5]
  unfold outAt
  by_cases h1 : k0_cond1 (grid0.coords t) = 1#1
  · rw [if_pos h1]
    iintro ⟨HΦ, Ho, ⟨%d0, H0⟩, ⟨%d1, H1⟩, ⟨%d2, H2⟩, ⟨%d3, H3⟩, ⟨%d4, H4⟩, ⟨%d5, H5⟩⟩
    iapply (sound_diag c Set.univ (grid0.coords t) h1 (fun h => ((offdiag_iff t).mp h) h1) _ _ _ _ _ _ _ _ _ _ _ _
      (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [if_neg h1]
    iintro ⟨HΦ, Ho, ⟨%d0, H0⟩, ⟨%d1, H1⟩, ⟨%d2, H2⟩, ⟨%d3, H3⟩, ⟨%d4, H4⟩, ⟨%d5, H5⟩⟩
    iapply (sound_off c Set.univ (grid0.coords t) h1 ((offdiag_iff t).mpr h1) _ _ _ _ _ _ _ _ _ _ _ _
      (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every windowed array at what the launch theorem assembles from the proof data and every other buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and its four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyIdeal.lean ====
/-
  The pipelined body of the covariance kernel, one grid point at a time.

  The grid is 8 x 8 blocks of 1024 x 1024 entries. At every point the body loads the row block, the column block and the
  weights, forms the weighted product of the two blocks, and stores ONE whole output block: on a diagonal point (block row =
  block column) the product with its own diagonal replaced by the softplus column, off the diagonal the product itself.
  Exactly one of the two branches is taken at every point, so the output block is always stored whole and is always
  written back; the inputs are only read. This file states what each staging buffer holds after the body at each point,
  runs the body symbolically in the two cases, and hands the result to the pipeline's launch theorem: the program runs to
  the end, faults nowhere and leaves its argument arrays as it found them, and the output array ends at what the launch
  theorem assembles from the blocks written back.
-/
import proofs.«179888_j51350628991246_2_alg».proof.Proof.Gen.KernelIdeal.Frame
import proofs.«179888_j51350628991246_2_alg».proof.Proof.Gen.KernelIdeal.Skeleton
import Idealize.ShloMosaic.Lib.Pipeline.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branches exclude each other -/

/-- At every grid point exactly one of "block row = block column" and "block row ≠ block column" holds (decided over
    the 64 points). -/
theorem offdiag_iff : ∀ t : Fin cfg0.N, k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1)

/-- Every load and store of the body starts at offset zero. -/
theorem hz2 : (![0, 0] : Fin 2 → Nat) = fun _ => 0 := by
  funext a; match a with | ⟨0, _⟩ => rfl | ⟨1, _⟩ => rfl
theorem hz1 : (![0] : Fin 1 → Nat) = fun _ => 0 := by
  funext a; match a with | ⟨0, _⟩ => rfl

/-! ## The body's triple in the two cases -/

set_option maxHeartbeats 2000000 in
/-- On whole staging memrefs — the five inputs' at their contents, the output's at anything — the body at a diagonal
    point runs to the continuation holding the inputs' as they were and the output's at the product block with its
    diagonal replaced by the softplus column (the second payload). -/
theorem sound_diag (c : Dev nD) (E : Set ℕ) (i : grid0.Coords) (h1 : k0_cond1 i = 1#1) (h2 : ¬ k0_cond2 i = 1#1)
    (arg2 : Memref sig .tc .vmem S1024x512 .f32) (harg2 : arg2.IsWhole) (arg3 : Memref sig .tc .vmem S1024x512 .bf16) (harg3 : arg3.IsWhole)
    (arg4 : Memref sig .tc .vmem S512 .f32) (harg4 : arg4.IsWhole) (arg5 : Memref sig .tc .vmem S512x1 .f32) (harg5 : arg5.IsWhole)
    (arg6 : Memref sig .tc .vmem S1 .f32) (harg6 : arg6.IsWhole) (arg7 : Memref sig .tc .vmem S1024x1024 .f32) (harg7 : arg7.IsWhole)
    (x0 : Vec F S1024x512 .f32) (x1 : Vec F S1024x512 .bf16) (x2 : Vec F S512 .f32) (x3 : Vec F S512x1 .f32) (x4 : Vec F S1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay2 x0 x1 x2 x3 x4)) -∗ K ⟨⟩))
      ⊢ wp frame (wpE (defs₀ (F := F)) Variants.none c none) E
          (cc0__cov_kernel i arg2 harg2 arg3 harg3 arg4 harg4 arg5 harg5 arg6 harg6 arg7 harg7) K := by
  simp only [cc0__cov_kernel_eq_skeleton]; unfold cc0__cov_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _, View.mem_set_unit_zero hz2 Facts₀.inb_S1024x1024_S1024x1024_0_0 y⟩),
    View.canon_unit_zero hz2]
  simp only [View.readAt_eq_ld, View.ld_unit_zero (S := S1024x512) hz2, View.ld_unit_zero (S := S512) hz1,
    View.ld_unit_zero (S := S512x1) hz2, View.ld_unit_zero (S := S1) hz1]

set_option maxHeartbeats 2000000 in
/-- The same off the diagonal: the output's memref ends at the product block (the first payload). -/
theorem sound_off (c : Dev nD) (E : Set ℕ) (i : grid0.Coords) (h1 : ¬ k0_cond1 i = 1#1) (h2 : k0_cond2 i = 1#1)
    (arg2 : Memref sig .tc .vmem S1024x512 .f32) (harg2 : arg2.IsWhole) (arg3 : Memref sig .tc .vmem S1024x512 .bf16) (harg3 : arg3.IsWhole)
    (arg4 : Memref sig .tc .vmem S512 .f32) (harg4 : arg4.IsWhole) (arg5 : Memref sig .tc .vmem S512x1 .f32) (harg5 : arg5.IsWhole)
    (arg6 : Memref sig .tc .vmem S1 .f32) (harg6 : arg6.IsWhole) (arg7 : Memref sig .tc .vmem S1024x1024 .f32) (harg7 : arg7.IsWhole)
    (x0 : Vec F S1024x512 .f32) (x1 : Vec F S1024x512 .bf16) (x2 : Vec F S512 .f32) (x3 : Vec F S512x1 .f32) (x4 : Vec F S1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay1 x0 x1 x2)) -∗ K ⟨⟩))
      ⊢ wp frame (wpE (defs₀ (F := F)) Variants.none c none) E
          (cc0__cov_kernel i arg2 harg2 arg3 harg3 arg4 harg4 arg5 harg5 arg6 harg6 arg7 harg7) K := by
  simp only [cc0__cov_kernel_eq_skeleton]; unfold cc0__cov_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _, View.mem_set_unit_zero hz2 Facts₀.inb_S1024x1024_S1024x1024_0_0 y⟩),
    View.canon_unit_zero hz2]
  simp only [View.readAt_eq_ld, View.ld_unit_zero (S := S1024x512) hz2, View.ld_unit_zero (S := S512) hz1]

/-! ## What the staging buffers hold after each point -/

/-- The output block the body leaves at point `t`: on the diagonal the product with the softplus diagonal, elsewhere the
    product, of the windows' blocks at `t`. -/
def outAt (c : Dev nD) (t : Fin cfg0.N) : Vec F S1024x1024 .f32 :=
  if k0_cond1 (grid0.coords t) = 1#1 then
    k0_pay2 (iblk m c 0 t) (iblk m c 1 t) (iblk m c 2 t) (iblk m c 3 t) (iblk m c 4 t)
  else k0_pay1 (iblk m c 0 t) (iblk m c 1 t) (iblk m c 2 t)

/-- The pipeline's proof data on core `c`: the arrays as the region finds them; after the body at point `t` every input
    buffer at its block and the output's at `outAt`; the body keeps nothing between points and owes nothing. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

/-- Every input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the output block is written back at every point, so its buffer is handed back at the stated
    contents at every point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

/-- Where the block is written back the buffer is handed back at the stated contents. -/
theorem leaves5 (c : Dev nD) (t : Fin cfg0.N) :
    (dats m 0 c).leavesExact 5 t = owns (c : Thread nD τ) (st0_5 t) fullShare ((dats m 0 c).after 5 t) := by
  unfold Dat.leavesExact
  rw [flush0_5 t]
  cases cfg0.idle 5 (cfg0.grid.coords t) <;> rfl

set_option maxHeartbeats 800000 in
/-- The body at any point: the inputs' memrefs hold their blocks; the point is on the diagonal or off it, and the
    matching triple applies; nothing else is touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, leaves5, after0_5]
  unfold outAt
  by_cases h1 : k0_cond1 (grid0.coords t) = 1#1
  · rw [if_pos h1]
    iintro ⟨HΦ, Ho, ⟨%d0, H0⟩, ⟨%d1, H1⟩, ⟨%d2, H2⟩, ⟨%d3, H3⟩, ⟨%d4, H4⟩, ⟨%d5, H5⟩⟩
    iapply (sound_diag c Set.univ (grid0.coords t) h1 (fun h => ((offdiag_iff t).mp h) h1) _ _ _ _ _ _ _ _ _ _ _ _
      (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [if_neg h1]
    iintro ⟨HΦ, Ho, ⟨%d0, H0⟩, ⟨%d1, H1⟩, ⟨%d2, H2⟩, ⟨%d3, H3⟩, ⟨%d4, H4⟩, ⟨%d5, H5⟩⟩
    iapply (sound_off c Set.univ (grid0.coords t) h1 ((offdiag_iff t).mpr h1) _ _ _ _ _ _ _ _ _ _ _ _
      (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every windowed array at what the launch theorem assembles from the proof data and every other buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and its four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.LibKeepdims.lean ====
/-
  Column layouts read at an index given by coordinates.
  A row-wise reduction that keeps its reduced axis (a sum over the columns of an [a, b] array, kept as an [a, 1]
  column) meets three layout steps on the way: the vector of row results is cast to a column, the column may be cast
  to a row, and the column is broadcast back over the b columns. Each is a reindexing; at an index written by its
  coordinates the result is the operand at the evident index: row i of the column is entry i of the vector, and entry
  (p, c) of the broadcast is row p of the column, whatever c. The same three steps written as host operations
  (a broadcast that places a vector along axis 0 of a column, a broadcast of a column over columns) read the same way,
  and so do a vector laid as a row, a row repeated over the rows, and a scalar spread over a whole shape.
-/
import Idealize.ShloMosaic.Lib.ValueLayout

namespace Cert.Lib.Keepdims

open Idealize.ShloMosaic Idealize.ShloMosaic.ValueIdx

variable {α : Type}

/-! ## A vector and its column -/

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column cast to a `[1, a]` row reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-! ## A column broadcast over the columns -/

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## The same steps as host broadcasts -/

/-- A host broadcast that lays an `[a]` vector along axis 0 of an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A host broadcast of an `[a, 1]` column over `[a, b]` (axes kept in place) reads, at `(p, c)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## A row as host broadcasts -/

/-- A host broadcast that lays a `[b]` vector along axis 1 of a `[1, b]` row reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A host broadcast of a `[1, b]` row over `[a, b]` (axes kept in place) reads, at `(p, c)`, the row at `(0, c)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- A host broadcast of a scalar to any shape reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.Lib.Keepdims
-- ==== Proof.LibRowSums.lean ====
/-
  Row sums of a matrix on extended reals, read at a row.
  A sum over the columns of an `[a, b]` array is taken two ways in a program: by the vector unit, as a reduction of a
  block over its lane axis started from the zero word, and by a host reduction over axis 1 started from an initial
  scalar. Read at row `p`, the first is the sum over `k` of the entries `(p, k)`, the second the initial value plus that
  sum; so with the zero word as initial value they are one number. Addition on the extended reals is commutative and
  associative, so the order either side takes the terms in does not enter.
-/
import Idealize.ShloMosaic.Lib.ValueIdx
import Idealize.ShloMosaic.PureOps.Ideal.Laws

namespace Cert.Lib.RowSums

open Idealize.ShloMosaic Idealize.ShloMosaic.ValueIdx

/-- The index of entry `k` of row `p`, as the reduction's own bookkeeping spells it, is `(p, k)`. -/
theorem lift_row {a b : Nat} (h : Shape.Reduces ⟨2, ![a, b]⟩ [1] ⟨1, ![a]⟩) (p : Fin a) (k : Fin b) :
    h.lift (ix1 p) k = ix2 p k :=
  funext fun c => Fin.ext (by match c with | ⟨0, _⟩ => rfl | ⟨1, _⟩ => rfl)

/-- A vector-unit sum over the columns of an `[a, b]` block, read at row `p`: the sum of the row's entries. -/
theorem multiReduction_cols_apply {a b : Nat} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- A host sum over axis 1 of an `[a, b]` array, read at row `p`: the initial value plus the sum of the row's entries. -/
theorem hostReduceAdd_cols_apply {a b : Nat} (x : (⟨2, ![a, b]⟩ : Shape).Idx → EReal) (init : EReal)
    (h' : Shape.ReducesTo ⟨2, ![a, b]⟩ [1] ⟨1, ![a]⟩) (h : Shape.Reduces ⟨2, ![a, b]⟩ [1] ⟨1, ![a]⟩) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-- Started from the zero word, the host's row sum is the vector unit's. -/
theorem host_row_sum_eq_vector {a b : Nat} (x : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hφ : FKind.Formats .f32) (hacc : (0x00000000#32 : BitVec 32) = FKind.add.neutral .f32 hφ) (p : Fin a) :
    Ideal.hostReduceAdd h' x (Ideal.ofBits .f32 0x00000000#32) (ix1 p)
      = multiReduction .add [1] ⟨1, ![a]⟩ x 0x00000000#32 h hφ hacc (ix1 p) := by
  rw [hostReduceAdd_cols_apply x _ h' h p, multiReduction_cols_apply x h hφ hacc p, Ideal.ofBits_zero_f32, zero_add]

end Cert.Lib.RowSums
-- ==== Proof.Spec.lean ====
/-
  The result both programs compute, as one function of the four argument arrays, entry by entry over the extended reals.

  For a data matrix x (8192 rows of 512 features), feature weights ck, a direction vk and an offset vb, the result is the
  8192 x 8192 matrix whose entry (r, c) off the diagonal is the weighted inner product  sum_k (x[r,k] * ck[k]) * x[c,k]
  of rows r and c, and whose diagonal entry (r, r) is  softplus(sum_k x[r,k] * vk[k] + vb) + eps,  the softplus written in
  its stable form  max(z, 0) + log(1 + exp(-|z|)).
-/
import Idealize.ShloMosaic.PureOps.Ideal
import Idealize.ShloMosaic.Lib.ValueIdx

noncomputable section

open scoped BigOperators

namespace Cert.CovSpec

open Idealize.ShloMosaic Idealize.ShloMosaic.ValueIdx

/-- The weighted inner product of rows `r` and `c` of `x`. -/
def gram (x : FVec Ideal ⟨2, ![8192, 512]⟩ .f32) (ck : FVec Ideal ⟨1, ![512]⟩ .f32) (r c : Fin 8192) : EReal :=
  ∑ k : Fin 512, (x (ix2 r k) * ck (ix1 k)) * x (ix2 c k)

/-- The affine form of row `r`: its inner product with the direction `vk`, plus the offset. -/
def lin (x : FVec Ideal ⟨2, ![8192, 512]⟩ .f32) (vk : FVec Ideal ⟨2, ![512, 1]⟩ .f32) (vb : FVec Ideal ⟨1, ![1]⟩ .f32)
    (r : Fin 8192) : EReal :=
  (∑ k : Fin 512, x (ix2 r k) * vk (ix2 k (0 : Fin 1))) + vb (ix1 (0 : Fin 1))

/-- Softplus in its stable form, plus the small constant both programs add (the same 32-bit pattern on both sides, never
    evaluated). -/
def softplusEps (z : EReal) : EReal :=
  (max z 0 + Ideal.log1p (Ideal.exp (-(max z (-z))))) + Ideal.ofBits .f32 0x322BCC77#32

/-- The whole result: the diagonal holds the softplus of the affine form, everything else the weighted Gram matrix. -/
def result (x : FVec Ideal ⟨2, ![8192, 512]⟩ .f32) (ck : FVec Ideal ⟨1, ![512]⟩ .f32) (vk : FVec Ideal ⟨2, ![512, 1]⟩ .f32)
    (vb : FVec Ideal ⟨1, ![1]⟩ .f32) : FVec Ideal ⟨2, ![8192, 8192]⟩ .f32 :=
  fun i => if (i 0).val = (i 1).val then softplusEps (lin x vk vb (i 0)) else gram x ck (i 0) (i 1)

theorem result_diag (x : FVec Ideal ⟨2, ![8192, 512]⟩ .f32) (ck : FVec Ideal ⟨1, ![512]⟩ .f32) (vk : FVec Ideal ⟨2, ![512, 1]⟩ .f32)
    (vb : FVec Ideal ⟨1, ![1]⟩ .f32) (r : Fin 8192) :
    result x ck vk vb (ix2 r r) = softplusEps (lin x vk vb r) := by
  unfold result; exact if_pos rfl

theorem result_off (x : FVec Ideal ⟨2, ![8192, 512]⟩ .f32) (ck : FVec Ideal ⟨1, ![512]⟩ .f32) (vk : FVec Ideal ⟨2, ![512, 1]⟩ .f32)
    (vb : FVec Ideal ⟨1, ![1]⟩ .f32) (r c : Fin 8192) (h : r.val ≠ c.val) :
    result x ck vk vb (ix2 r c) = gram x ck r c := by
  unfold result; exact if_neg h

/-- The two spellings of "minus the absolute value" agree on the extended reals, and so do the two spellings of the
    never-taken branch's guard: what remains of either program's softplus is `softplusEps`. -/
theorem zero_sub_eq (a : EReal) : (0 : EReal) - a = -a := by
  rw [sub_eq_add_neg, zero_add]

theorem sub_zero_eq (a : EReal) : a - (0 : EReal) = a := by
  rw [sub_eq_add_neg, neg_zero, add_zero]

end Cert.CovSpec

end
-- ==== Proof.KernelPayload.lean ====
/-
  One output block of the covariance kernel, entry by entry, over the extended reals.

  The body forms, from a row block xr and a column block xc (1024 rows of 512 features each), the weights ck, the
  direction vk and the offset vb, the 1024 x 1024 block whose entry (p, q) is  sum_k (xr[p,k] * ck[k]) * xc[q,k]  (the
  matrix unit's contraction into a zero accumulator is that sum; narrowing the factors to a shorter float format changes
  nothing over the extended reals). On a diagonal block the entries with p = q are replaced by
  softplus(sum_k xr[p,k] * vk[k] + vb) + eps, a row sum on the vector unit followed by pointwise operations; the mask
  "row number = column number" is an equality of two counters below 1024.
-/
import proofs.«179888_j51350628991246_2_alg».proof.Proof.Gen.KernelIdeal.Skeleton
import proofs.«179888_j51350628991246_2_alg».proof.Proof.LibKeepdims
import proofs.«179888_j51350628991246_2_alg».proof.Proof.LibRowSums
import proofs.«179888_j51350628991246_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx
open Cert.Lib.Keepdims Cert.Lib.RowSums

/-- The matrix unit's dimension numbers: both operands are contracted along their feature axis. -/
abbrev D : DotDims S1024x512 S1024x512 S1024x1024 := dot_S1024x512_S1024x512_S1024x1024_1_1_0_0_n_n

/-! ## Which operand entries meet at output entry (p, q) and feature k -/

theorem lhs_0 (j : S1024x1024.Idx) (q : D.contr.Idx) : (D.lhsIdx j q 0).val = (j 0).val := by
  unfold DotDims.lhsIdx
  rw [dif_neg (show ¬(0 : Fin S1024x512.rank) ∈ D.lhsBatch by decide), dif_pos (show (0 : Fin S1024x512.rank) ∈ D.lhsNonContracting by decide)]
  rfl
theorem lhs_1 (j : S1024x1024.Idx) (q : D.contr.Idx) : (D.lhsIdx j q 1).val = (q ⟨0, by decide⟩).val :=
  D.lhsIdx_val_of_single rfl j q
theorem rhs_0 (j : S1024x1024.Idx) (q : D.contr.Idx) : (D.rhsIdx j q 0).val = (j 1).val := by
  unfold DotDims.rhsIdx
  rw [dif_neg (show ¬(0 : Fin S1024x512.rank) ∈ D.rhsBatch by decide), dif_pos (show (0 : Fin S1024x512.rank) ∈ D.rhsNonContracting by decide)]
  rfl
theorem rhs_1 (j : S1024x1024.Idx) (q : D.contr.Idx) : (D.rhsIdx j q 1).val = (q ⟨0, by decide⟩).val :=
  D.rhsIdx_val_of_single rfl j q

/-! ## The product block -/

/-- The row block scaled by the weights, at (p, k). -/
theorem weighted_apply (x0 : FVec Ideal S1024x512 .f32) (x2 : FVec Ideal S512 .f32) (p : Fin 1024) (k : Fin 512) :
    (truncf .bf16 (mulf x0 (broadcastTo S1024x512 (shapeCast S1x512 x2 Facts₀.shapeCasts_S512_S1x512) Facts₀.broadcasts_S1x512_S1024x512)) Facts₀.bitsLt_bf16_f32 : FVec Ideal S1024x512 .bf16) (ix2 p k)
      = x0 (ix2 p k) * x2 (ix1 k) := by
  rw [truncf_apply, mulf_apply, broadcastTo_1b_ab_apply, shapeCast_a_1a_apply]

/-- THE PRODUCT BLOCK at (p, q): the weighted inner product of row p of the row block and row q of the column block. -/
theorem prod_apply (x0 : FVec Ideal S1024x512 .f32) (x1 : FVec Ideal S1024x512 .bf16) (x2 : FVec Ideal S512 .f32) (p q : Fin 1024) :
    k0_pay1 (F := Ideal) x0 x1 x2 (ix2 p q) = ∑ k : Fin 512, (x0 (ix2 p k) * x2 (ix1 k)) * x1 (ix2 q k) := by
  unfold k0_pay1
  refine (Ideal.matmul_constant_zero_apply D none _ _ (ix2 p q)).trans ?_
  rw [← Equiv.sum_comp (contrEquiv1 D 512 rfl rfl).symm]
  refine Finset.sum_congr rfl fun k _ => ?_
  have hk := contrEquiv1_symm_val D 512 rfl rfl k
  have el : D.lhsIdx (ix2 p q) ((contrEquiv1 D 512 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 512 rfl rfl).symm k) = ix2 q k := funext fun a => Fin.ext (by
    match a with
    | ⟨0, _⟩ => exact rhs_0 _ _
    | ⟨1, _⟩ => exact (rhs_1 _ _).trans hk)
  rw [el, er, weighted_apply, shapeCast_self]

/-! ## The diagonal mask and the softplus column -/

/-- The mask "row number = column number" at (p, q): two counters below 1024 compared as 32-bit words. -/
theorem mask_apply (p q : Fin 1024) :
    (cmpi .eq (broadcastTo S1024x1024 (iota .tc S1024x1 32 [0] Facts₀.iota_S1024x1_d0_w32) Facts₀.broadcasts_S1024x1_S1024x1024)
        (broadcastTo S1024x1024 (iota .tc S1x1024 32 [1] Facts₀.iota_S1x1024_d1_w32) Facts₀.broadcasts_S1x1024_S1024x1024) : IVec S1024x1024 1) (ix2 p q)
      = if p.val = q.val then 1#1 else 0#1 := by
  show IntOp.cmpi .eq (broadcastTo S1024x1024 (iota .tc S1024x1 32 [0] Facts₀.iota_S1024x1_d0_w32) Facts₀.broadcasts_S1024x1_S1024x1024 (ix2 p q))
      (broadcastTo S1024x1024 (iota .tc S1x1024 32 [1] Facts₀.iota_S1x1024_d1_w32) Facts₀.broadcasts_S1x1024_S1024x1024 (ix2 p q)) = _
  rw [broadcastTo_a1_ab_apply, broadcastTo_1b_ab_apply, iota_single_apply, iota_single_apply]
  show BitVec.ofBool (BitVec.ofNat 32 p.val == BitVec.ofNat 32 q.val) = _
  have hp := p.isLt
  have hq := q.isLt
  by_cases h : p.val = q.val
  · rw [if_pos h, h]; simp
  · rw [if_neg h]
    have hne : (BitVec.ofNat 32 p.val == BitVec.ofNat 32 q.val) = false := by
      rw [beq_eq_false_iff_ne]
      intro e
      have e' := congrArg BitVec.toNat e
      rw [BitVec.toNat_ofNat, BitVec.toNat_ofNat] at e'
      omega
    rw [hne]; rfl

/-- The affine form of row p of the row block as the body takes it: the row's products with the direction summed along
    the lanes, plus the one offset word. -/
theorem lin_apply (x0 : FVec Ideal S1024x512 .f32) (x3 : FVec Ideal S512x1 .f32) (x4 : FVec Ideal S1 .f32)
    (hφ : FKind.Formats .f32) (hacc : (0x00000000#32 : BitVec 32) = FKind.add.neutral .f32 hφ) (p : Fin 1024) :
    (addf (shapeCast S1024x1 (multiReduction .add [1] S1024 (mulf x0 (broadcastTo S1024x512
        (shapeCast S1x512 (shapeCast S512 x3 Facts₀.shapeCasts_S512x1_S512) Facts₀.shapeCasts_S512_S1x512) Facts₀.broadcasts_S1x512_S1024x512))
        0x00000000#32 Facts₀.reduces_S1024x512_S1024 hφ hacc) Facts₀.shapeCasts_S1024_S1024x1)
      (broadcast S1024x1 (extractAt ![0] x4 Facts₀.inpos_S1_p0)) : FVec Ideal S1024x1 .f32) (ix2 p (0 : Fin 1))
      = (∑ k : Fin 512, x0 (ix2 p k) * x3 (ix2 k (0 : Fin 1))) + x4 (ix1 (0 : Fin 1)) := by
  rw [addf_apply, shapeCast_a_a1_apply]
  refine congrArg₂ (· + ·) ?_ ?_
  · refine (multiReduction_cols_apply _ Facts₀.reduces_S1024x512_S1024 hφ hacc p).trans ?_
    refine Finset.sum_congr rfl fun k _ => ?_
    rw [mulf_apply, broadcastTo_1b_ab_apply, shapeCast_a_1a_apply, shapeCast_a1_a_apply]
  · show x4 (fun a => ⟨(![0] : Fin 1 → Nat) a, Facts₀.inpos_S1_p0 a⟩) = x4 (ix1 (0 : Fin 1))
    exact congrArg x4 (funext fun a => Fin.ext (by match a with | ⟨0, _⟩ => rfl))

/-- The pointwise chain after the affine form is softplus in its stable form plus the small constant: the guard of the
    never-taken branch compares a number with itself, "zero minus" is negation, and subtracting zero changes nothing. -/
theorem softplus_column (V : FVec Ideal S1024x1 .f32) (i : S1024x1.Idx) :
    (addf
      (select
        (cmpf CmpFPredicate.one (subf V (broadcast S1024x1 (FloatOps.ofBits FTy.f32 0#32))) (subf V (broadcast S1024x1 (FloatOps.ofBits FTy.f32 0#32))))
        (addf V (broadcast S1024x1 (FloatOps.ofBits FTy.f32 0#32)))
        (addf (maximumf V (broadcast S1024x1 (FloatOps.ofBits FTy.f32 0#32)))
          (Idealize.ShloMosaic.log1p (Idealize.ShloMosaic.exp (subf (broadcast S1024x1 (FloatOps.ofBits FTy.f32 0#32))
            (Idealize.ShloMosaic.absf (subf V (broadcast S1024x1 (FloatOps.ofBits FTy.f32 0#32)))))))))
      (broadcast S1024x1 (FloatOps.ofBits FTy.f32 841731191#32)) : FVec Ideal S1024x1 .f32) i
      = Cert.CovSpec.softplusEps (V i) := by
  show Scalar.select (Ideal.cmp .one (V i - Ideal.ofBits .f32 0#32) (V i - Ideal.ofBits .f32 0#32)) (V i + Ideal.ofBits .f32 0#32)
      (max (V i) (Ideal.ofBits .f32 0#32) + Ideal.log1p (Ideal.exp (Ideal.ofBits .f32 0#32 - max (V i - Ideal.ofBits .f32 0#32) (-(V i - Ideal.ofBits .f32 0#32)))))
      + Ideal.ofBits .f32 841731191#32 = _
  have hc : Ideal.cmp .one (V i - Ideal.ofBits .f32 0#32) (V i - Ideal.ofBits .f32 0#32) = 0#1 := by
    simp [Ideal.cmp]
  rw [hc, select_zero, Ideal.ofBits_zero_f32, Cert.CovSpec.sub_zero_eq, Cert.CovSpec.zero_sub_eq]
  rfl

/-- THE DIAGONAL BLOCK at (p, q): the softplus of row p's affine form where p = q, the product block elsewhere. -/
theorem diag_apply (x0 : FVec Ideal S1024x512 .f32) (x1 : FVec Ideal S1024x512 .bf16) (x2 : FVec Ideal S512 .f32)
    (x3 : FVec Ideal S512x1 .f32) (x4 : FVec Ideal S1 .f32) (p q : Fin 1024) :
    k0_pay2 (F := Ideal) x0 x1 x2 x3 x4 (ix2 p q)
      = if p.val = q.val then Cert.CovSpec.softplusEps ((∑ k : Fin 512, x0 (ix2 p k) * x3 (ix2 k (0 : Fin 1))) + x4 (ix1 (0 : Fin 1)))
        else k0_pay1 (F := Ideal) x0 x1 x2 (ix2 p q) := by
  unfold k0_pay2
  dsimp only
  rw [select_apply, mask_apply, broadcastTo_a1_ab_apply, shapeCast_self]
  by_cases h : p.val = q.val
  · rw [if_pos h, if_pos h, select_one]
    exact (softplus_column _ _).trans (congrArg Cert.CovSpec.softplusEps (lin_apply x0 x3 x4 _ _ p))
  · rw [if_neg h, if_neg h, select_zero]

end Cert.KernelIdeal.Pay

end
-- ==== Proof.KernelBlocks.lean ====
/-
  A block of the result is the body's block.

  Cut the 8192 rows of x into eight row blocks of 1024. The output block in block row b0 and block column b1 of the
  result is a function of row block b0, row block b1 and the weights only: off the diagonal of blocks (b0 ≠ b1) no
  entry lies on the diagonal of the result, so the block is the weighted product of the two row blocks; on it (b0 = b1)
  entry (p, q) lies on the diagonal exactly when p = q, where the softplus of row p's affine form stands. These are the
  two blocks the kernel's body computes.
-/
import proofs.«179888_j51350628991246_2_alg».proof.Proof.KernelPayload
import proofs.«179888_j51350628991246_2_alg».proof.Proof.Spec

noncomputable section

open scoped BigOperators

namespace Cert.KernelIdeal.Blocks

open Cert.KernelIdeal Cert.KernelIdeal.Gen Idealize.ShloMosaic Idealize.ShloMosaic.ValueIdx

/-- Rows 1024 b … 1024 b + 1023 of an array of 8192 rows. -/
def rowBlock {φ : FTy} (X : FVec Ideal S8192x512 φ) (b : Fin 8) : FVec Ideal S1024x512 φ :=
  fun i => X (ix2 (⟨b.val * 1024 + (i 0).val, by have h0 := idx2_lt0 i; have hb := b.isLt; omega⟩ : Fin 8192) (i 1))

/-- Row `p` of block `b` is row `1024 b + p`. -/
def rowOf (b : Fin 8) (p : Fin 1024) : Fin 8192 := ⟨b.val * 1024 + p.val, by have hp := p.isLt; have hb := b.isLt; omega⟩

theorem rowBlock_apply {φ : FTy} (X : FVec Ideal S8192x512 φ) (b : Fin 8) (p : Fin 1024) (k : Fin 512) :
    rowBlock X b (ix2 p k) = X (ix2 (rowOf b p) k) := rfl

/-- A DIAGONAL BLOCK of the result is the body's diagonal block of the row block (taken twice: once as it is, once as its
    copy in the shorter float format, which holds the same extended reals). -/
theorem block_diag (X : FVec Ideal S8192x512 .f32) (Xb : FVec Ideal S8192x512 .bf16) (hXb : ∀ i, Xb i = X i)
    (CK : FVec Ideal S512 .f32) (VK : FVec Ideal S512x1 .f32) (VB : FVec Ideal S1 .f32) (b : Fin 8) (p q : Fin 1024) :
    k0_pay2 (F := Ideal) (rowBlock X b) (rowBlock Xb b) CK VK VB (ix2 p q)
      = Cert.CovSpec.result X CK VK VB (ix2 (rowOf b p) (rowOf b q)) := by
  rw [Pay.diag_apply]
  by_cases h : p.val = q.val
  · rw [if_pos h]
    obtain rfl : p = q := Fin.ext h
    rw [Cert.CovSpec.result_diag]
    rfl
  · rw [if_neg h, Cert.CovSpec.result_off _ _ _ _ _ _ (by show b.val * 1024 + p.val ≠ b.val * 1024 + q.val; omega), Pay.prod_apply]
    unfold Cert.CovSpec.gram
    refine Finset.sum_congr rfl fun k _ => ?_
    rw [rowBlock_apply, rowBlock_apply, hXb]

/-- AN OFF-DIAGONAL BLOCK of the result is the weighted product of its two row blocks. -/
theorem block_off (X : FVec Ideal S8192x512 .f32) (Xb : FVec Ideal S8192x512 .bf16) (hXb : ∀ i, Xb i = X i)
    (CK : FVec Ideal S512 .f32) (VK : FVec Ideal S512x1 .f32) (VB : FVec Ideal S1 .f32) (b0 b1 : Fin 8) (hb : b0.val ≠ b1.val)
    (p q : Fin 1024) :
    k0_pay1 (F := Ideal) (rowBlock X b0) (rowBlock Xb b1) CK (ix2 p q)
      = Cert.CovSpec.result X CK VK VB (ix2 (rowOf b0 p) (rowOf b1 q)) := by
  have hp := p.isLt
  have hq := q.isLt
  rw [Cert.CovSpec.result_off _ _ _ _ _ _ (by show b0.val * 1024 + p.val ≠ b1.val * 1024 + q.val; omega), Pay.prod_apply]
  unfold Cert.CovSpec.gram
  refine Finset.sum_congr rfl fun k _ => ?_
  rw [rowBlock_apply, rowBlock_apply, hXb]

end Cert.KernelIdeal.Blocks

end
-- ==== Proof.KernelValue.lean ====
/-
  The kernel's output array after the run, as one function of its arguments.

  Grid point t = (i, j) writes back the 1024 x 1024 block in block row i and block column j. Its row-block window is
  block i of x, its column-block window block j of the copy of x in the shorter float format (the same extended reals),
  and the three small windows are the whole weight arrays. So what the point writes back is the block (i, j) of the
  specified result; the 64 blocks cover the array (entry (r, c) lies in block (r / 1024, c / 1024)), hence the array ends
  holding the specified result.
-/
import proofs.«179888_j51350628991246_2_alg».proof.Proof.BodyIdeal
import proofs.«179888_j51350628991246_2_alg».proof.Proof.KernelBlocks
import Idealize.ShloMosaic.Lib.Pipeline.Value
import Idealize.ShloMosaic.Lib.StableHlo.Run

set_option maxRecDepth 16384

noncomputable section

namespace Cert.KernelIdeal.Final

open Cert.KernelIdeal Cert.KernelIdeal.Gen Cert.KernelIdeal.Body Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where the windows stand at a grid point -/

/-- Decided over the 64 points: the row-block window follows the output's block row, the column-block window its block
    column, the small windows stay put, block indices are below 8, and a point is on the diagonal exactly when its two
    block indices agree. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) ≤ 7 ∧ win0_5.index t (1 : Fin 2) ≤ 7
    ∧ (k0_cond1 (grid0.coords t) = 1#1 ↔ win0_5.index t (0 : Fin 2) = win0_5.index t (1 : Fin 2)) :=
  (by decide +kernel : ∀ t : Fin grid0.N, _)

/-- Every pair of block indices is some point's. -/
theorem idx_onto : ∀ (q0 q1 : Fin 8), ∃ t : Fin cfg0.N, win0_5.index t = ![q0.val, q1.val] :=
  (by decide +kernel : ∀ (q0 q1 : Fin 8), ∃ t : Fin grid0.N, win0_5.index t = ![q0.val, q1.val])

/-- The output's block row and block column at point `t`. -/
def bi (t : Fin cfg0.N) : Fin 8 := ⟨win0_5.index t (0 : Fin 2), by have := (idx_facts t).2.2.2.2.2.2.2.2.1; omega⟩
def bj (t : Fin cfg0.N) : Fin 8 := ⟨win0_5.index t (1 : Fin 2), by have := (idx_facts t).2.2.2.2.2.2.2.2.2.1; omega⟩

/-! ## The windows' blocks are blocks of the arguments -/

/-- The copy of x in the shorter float format, made before the kernel is launched, holds x's extended reals. -/
theorem copy_eq (c : Dev nD) (i : S8192x512.Idx) :
    (V m c main_v0 : FVec Ideal S8192x512 .bf16) i = m ((c : Thread nD τ).loc main_arg0) i := by
  have e : (V m c main_v0 : S8192x512.Idx → EReal)
      = truncf (F := Ideal) .bf16 (m ((c : Thread nD τ).loc main_arg0)) Facts₀.bitsLt_bf16_f32 := by
    dsimp only [Gen.V, Gen.hostOps0]; after_results
  exact congrFun e i

theorem iblk0_eq (c : Dev nD) (t : Fin cfg0.N) :
    (iblk m c 0 t : FVec Ideal S1024x512 .f32) = rowBlock (φ := .f32) (m ((c : Thread nD τ).loc main_arg0)) (bi t) := by
  obtain ⟨e0, e1, -⟩ := idx_facts t
  funext j
  unfold iblk
  rw [View.read_apply]
  show V m c main_arg0 (((cfg0.win 0).blk t).view.emb j) = m ((c : Thread nD τ).loc main_arg0) _
  rw [V_main_arg0]
  refine congrArg _ (funext fun a => Fin.ext ?_)
  match a with
  | ⟨0, _⟩ => show win0_0.index t (0 : Fin 2) * 1024 + 1 * (j 0).val = win0_5.index t (0 : Fin 2) * 1024 + (j 0).val; rw [e0]; omega
  | ⟨1, _⟩ => show win0_0.index t (1 : Fin 2) * 512 + 1 * (j 1).val = (j 1).val; rw [e1]; omega

theorem iblk1_eq (c : Dev nD) (t : Fin cfg0.N) :
    (iblk m c 1 t : FVec Ideal S1024x512 .bf16) = rowBlock (φ := .bf16) (V m c main_v0) (bj t) := by
  obtain ⟨-, -, e0, e1, -⟩ := idx_facts t
  funext j
  unfold iblk
  rw [View.read_apply]
  show V m c main_v0 (((cfg0.win 1).blk t).view.emb j) = V m c main_v0 _
  refine congrArg _ (funext fun a => Fin.ext ?_)
  match a with
  | ⟨0, _⟩ => show win0_1.index t (0 : Fin 2) * 1024 + 1 * (j 0).val = win0_5.index t (1 : Fin 2) * 1024 + (j 0).val; rw [e0]; omega
  | ⟨1, _⟩ => show win0_1.index t (1 : Fin 2) * 512 + 1 * (j 1).val = (j 1).val; rw [e1]; omega

theorem iblk2_eq (c : Dev nD) (t : Fin cfg0.N) :
    (iblk m c 2 t : FVec Ideal S512 .f32) = m ((c : Thread nD τ).loc main_arg1) := by
  obtain ⟨-, -, -, -, e0, -⟩ := idx_facts t
  funext j
  unfold iblk
  rw [View.read_apply]
  show V m c main_arg1 (((cfg0.win 2).blk t).view.emb j) = m ((c : Thread nD τ).loc main_arg1) j
  rw [V_main_arg1]
  refine congrArg _ (funext fun a => Fin.ext ?_)
  match a with
  | ⟨0, _⟩ => show win0_2.index t (0 : Fin 1) * 512 + 1 * (j 0).val = (j 0).val; rw [e0]; omega

theorem iblk3_eq (c : Dev nD) (t : Fin cfg0.N) :
    (iblk m c 3 t : FVec Ideal S512x1 .f32) = m ((c : Thread nD τ).loc main_arg2) := by
  obtain ⟨-, -, -, -, -, e0, e1, -⟩ := idx_facts t
  funext j
  unfold iblk
  rw [View.read_apply]
  show V m c main_arg2 (((cfg0.win 3).blk t).view.emb j) = m ((c : Thread nD τ).loc main_arg2) j
  rw [V_main_arg2]
  refine congrArg _ (funext fun a => Fin.ext ?_)
  match a with
  | ⟨0, _⟩ => show win0_3.index t (0 : Fin 2) * 512 + 1 * (j 0).val = (j 0).val; rw [e0]; omega
  | ⟨1, _⟩ => show win0_3.index t (1 : Fin 2) * 1 + 1 * (j 1).val = (j 1).val; rw [e1]; omega

theorem iblk4_eq (c : Dev nD) (t : Fin cfg0.N) :
    (iblk m c 4 t : FVec Ideal S1 .f32) = m ((c : Thread nD τ).loc main_arg3) := by
  obtain ⟨-, -, -, -, -, -, -, e0, -⟩ := idx_facts t
  funext j
  unfold iblk
  rw [View.read_apply]
  show V m c main_arg3 (((cfg0.win 4).blk t).view.emb j) = m ((c : Thread nD τ).loc main_arg3) j
  rw [V_main_arg3]
  refine congrArg _ (funext fun a => Fin.ext ?_)
  match a with
  | ⟨0, _⟩ => show win0_4.index t (0 : Fin 1) * 1 + 1 * (j 0).val = (j 0).val; rw [e0]; omega

/-! ## What a point writes back -/

/-- The specified result of the arguments as launched. -/
abbrev spec (c : Dev nD) : FVec Ideal S8192x8192 .f32 :=
  Cert.CovSpec.result (m ((c : Thread nD τ).loc main_arg0)) (m ((c : Thread nD τ).loc main_arg1))
    (m ((c : Thread nD τ).loc main_arg2)) (m ((c : Thread nD τ).loc main_arg3))

/-- Entry (p, q) of point `t`'s block is entry (1024 i + p, 1024 j + q) of the array. -/
theorem emb5 (t : Fin cfg0.N) (p q : Fin 1024) :
    ((cfg0.win 5).blk t).view.emb (ix2 p q) = ix2 (rowOf (bi t) p) (rowOf (bj t) q) := by
  refine funext fun a => Fin.ext ?_
  match a with
  | ⟨0, _⟩ => show win0_5.index t (0 : Fin 2) * 1024 + 1 * p.val = win0_5.index t (0 : Fin 2) * 1024 + p.val; omega
  | ⟨1, _⟩ => show win0_5.index t (1 : Fin 2) * 1024 + 1 * q.val = win0_5.index t (1 : Fin 2) * 1024 + q.val; omega

/-- WHAT POINT `t` WRITES BACK is block `t` of the specified result. -/
theorem flushed_eq (c : Dev nD) (t : Fin cfg0.N) :
    (dats m 0 c).flushed 5 t = ((cfg0.win 5).blk t).view.read (Elt Ideal) (spec m c) := by
  show (cfg0.win 5).cut (grid0.coords t) ((dats m 0 c).after 5 t) = _
  rw [after0_5]
  unfold outAt
  rw [iblk0_eq, iblk1_eq, iblk2_eq, iblk3_eq, iblk4_eq]
  have hcond := (idx_facts t).2.2.2.2.2.2.2.2.2.2
  by_cases h1 : k0_cond1 (grid0.coords t) = 1#1
  · rw [if_pos h1]
    have hb : bj t = bi t := Fin.ext (hcond.mp h1).symm
    rw [hb]
    funext j
    obtain ⟨p, q, rfl⟩ : ∃ (p q : Fin 1024), j = ix2 p q := ⟨j 0, j 1, eq_ix2 j⟩
    have he : ((cfg0.win 5).blk t).view.emb (ix2 p q) = ix2 (rowOf (bi t) p) (rowOf (bi t) q) := by rw [emb5, hb]
    show k0_pay2 (F := Ideal) _ _ _ _ _ (ix2 p q) = spec m c (((cfg0.win 5).blk t).view.emb (ix2 p q))
    exact (block_diag _ _ (copy_eq m c) _ _ _ (bi t) p q).trans (congrArg (spec m c) he.symm)
  · rw [if_neg h1]
    have hb : (bi t).val ≠ (bj t).val := fun e => h1 (hcond.mpr e)
    funext j
    obtain ⟨p, q, rfl⟩ : ∃ (p q : Fin 1024), j = ix2 p q := ⟨j 0, j 1, eq_ix2 j⟩
    show k0_pay1 (F := Ideal) _ _ _ (ix2 p q) = spec m c (((cfg0.win 5).blk t).view.emb (ix2 p q))
    exact (block_off _ _ (copy_eq m c) _ (m ((c : Thread nD τ).loc main_arg2)) (m ((c : Thread nD τ).loc main_arg3)) (bi t) (bj t) hb p q).trans
      (congrArg (spec m c) (emb5 t p q).symm)

/-! ## The blocks cover the array -/

theorem mem_blk (t : Fin cfg0.N) (i : S8192x8192.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v1).slice (win0_5.rect t)).set ↔ _
  rw [View.set_slice_whole, Rect.mem_set_unit]
  exact Iff.rfl

theorem cover (i : S8192x8192.Idx) :
    ∃ t : Fin cfg0.N, (cfg0.win 5).flush t = true ∧ i ∈ ((cfg0.win 5).blk t).view.set := by
  have hi0 : (i 0).val < 8192 := idx2_lt0 i
  have hi1 : (i 1).val < 8192 := idx2_lt1 i
  obtain ⟨t, ht⟩ := idx_onto ⟨(i 0).val / 1024, by omega⟩ ⟨(i 1).val / 1024, by omega⟩
  have q0 : win0_5.index t (0 : Fin 2) = (i 0).val / 1024 := congrFun ht 0
  have q1 : win0_5.index t (1 : Fin 2) = (i 1).val / 1024 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- THE ARRAY after the run is the specified result. -/
theorem final (c : Dev nD) : (dats m 0 c).arrAt 5 cfg0.N = spec m c :=
  (dats m 0 c).arrAt_eq_of_cover 5 (spec m c) (fun t _ => flushed_eq m c t) cover

/-! ## The run, read -/

/-- Every weakly fair execution of the kernel's program terminates with the output array at the specified result of the
    arguments and the arguments unchanged. -/
theorem run : θ_run defs (onTc (τ := τ) (main (F := Ideal))) ⟨m, fun _ => 0, ρ⟩ fun r => ∀ c : Dev nD,
      r.2.mem ((c : Thread nD τ).loc main_v1) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 5).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c)))⟩)
    (run_main m ρ)

end Cert.KernelIdeal.Final

end
-- ==== Proof.LibScatterSet.lean ====
/-
  A scatter that SETS, read at an index.
  Writing a block of values into a table at a given place, `x.at[…].set(upd)`, lowers to a scatter whose body returns
  the update. The operation takes the update entries one after the other (in row-major order) and overwrites, for each,
  the table entry it lands on; an update that lands outside the table is dropped. When no two updates land on the same
  entry the order does not matter, and the result is simply: at an entry some update lands on, that update; at every other
  entry, the table's own value.
-/
import Idealize.ShloMosaic.Lib.ValueLayout

namespace Cert.Lib.ScatterSet

open Idealize.ShloMosaic Idealize.ShloMosaic.ValueIdx

variable {α : Type} {s si u : Shape} {w : Nat}

/-- One step of the scatter: update number `n` overwrites the entry it lands on, if any. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The scatter whose body returns the update is the fold of that step over the update numbers. -/
theorem scatter_set_eq_foldl (d : ScatterDims s si u) (x : s.Idx → α) (idx : IVec si w) (upd : u.Idx → α) :
    Host.scatter d (fun _ b => b) x idx upd = (List.finRange u.numel).foldl (step d idx upd) x := rfl

/-- A step whose update does not land on `i` leaves entry `i` alone. -/
theorem step_of_ne (d : ScatterDims s si u) (idx : IVec si w) (upd : u.Idx → α) (r : s.Idx → α) (n : Fin u.numel)
    (i : s.Idx) (h : d.resultIdx? (u.rowMajor.symm n) idx ≠ some i) : step d idx upd r n i = r i := by
  unfold step
  cases hr : d.resultIdx? (u.rowMajor.symm n) idx with
  | none => rfl
  | some i' =>
    have hne : i ≠ i' := fun e => h (by rw [hr, e])
    show (if i = i' then _ else r i) = r i
    rw [if_neg hne]

/-- A step whose update lands on `i` leaves the update there. -/
theorem step_of_eq (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step
  cases hr : d.resultIdx? (u.rowMajor.symm n) idx with
  | none => rw [hr] at h; exact nomatch h
  | some i' =>
    have he : i = i' := Option.some.inj (h.symm.trans hr)
    show (if i = i' then _ else r i) = _
    rw [if_pos he]

/-- Over a list none of whose updates lands on `i`, entry `i` keeps its value. -/
theorem foldl_of_none (d : ScatterDims s si u) (idx : IVec si w) (upd : u.Idx → α) (i : s.Idx) :
    ∀ (L : List (Fin u.numel)) (r : s.Idx → α), (∀ n ∈ L, d.resultIdx? (u.rowMajor.symm n) idx ≠ some i) →
      L.foldl (step d idx upd) r i = r i
  | [], _, _ => rfl
  | n :: L, r, h => by
    rw [List.foldl_cons, foldl_of_none d idx upd i L _ (fun n' hn' => h n' (List.mem_cons_of_mem _ hn')),
      step_of_ne d idx upd r n i (h n List.mem_cons_self)]

/-- Over a list holding an update that lands on `i`, entry `i` ends at that update — when no other update lands there. -/
theorem foldl_of_lands (d : ScatterDims s si u) (idx : IVec si w) (upd : u.Idx → α) (i : s.Idx)
    (hinj : ∀ n n' : Fin u.numel, d.resultIdx? (u.rowMajor.symm n) idx = some i →
      d.resultIdx? (u.rowMajor.symm n') idx = some i → n = n') :
    ∀ (L : List (Fin u.numel)) (r : s.Idx → α) (n₀ : Fin u.numel), n₀ ∈ L →
      d.resultIdx? (u.rowMajor.symm n₀) idx = some i → L.foldl (step d idx upd) r i = upd (u.rowMajor.symm n₀)
  | [], _, _, h, _ => absurd h List.not_mem_nil
  | n :: L, r, n₀, hmem, hl => by
    rw [List.foldl_cons]
    by_cases hex : ∃ n₁ ∈ L, d.resultIdx? (u.rowMajor.symm n₁) idx = some i
    · obtain ⟨n₁, hn₁, hl₁⟩ := hex
      rw [foldl_of_lands d idx upd i hinj L _ n₁ hn₁ hl₁, hinj n₁ n₀ hl₁ hl]
    · have hnone : ∀ n' ∈ L, d.resultIdx? (u.rowMajor.symm n') idx ≠ some i := fun n' hn' e => hex ⟨n', hn', e⟩
      have hn : n₀ = n := by
        rcases List.mem_cons.mp hmem with e | e
        · exact e
        · exact absurd hl (hnone n₀ e)
      rw [foldl_of_none d idx upd i L _ hnone, ← hn, step_of_eq d idx upd r n₀ i hl]

/-- THE SCATTER READ WHERE AN UPDATE LANDS: update `j` lands on `i` and no other does: the result holds `upd j` there. -/
theorem scatter_set_of_lands (d : ScatterDims s si u) (x : s.Idx → α) (idx : IVec si w) (upd : u.Idx → α)
    (i : s.Idx) (j : u.Idx) (hl : d.resultIdx? j idx = some i)
    (hinj : ∀ j' : u.Idx, d.resultIdx? j' idx = some i → j' = j) :
    Host.scatter d (fun _ b => b) x idx upd i = upd j := by
  rw [scatter_set_eq_foldl]
  have hj : u.rowMajor.symm (u.rowMajor j) = j := u.rowMajor.symm_apply_apply j
  have := foldl_of_lands d idx upd i
    (fun n n' h h' => u.rowMajor.symm.injective ((hinj _ h).trans (hinj _ h').symm))
    (List.finRange u.numel) x (u.rowMajor j) (List.mem_finRange _) (by rw [hj]; exact hl)
  rw [this, hj]

/-- THE SCATTER READ WHERE NOTHING LANDS: the table's own value. -/
theorem scatter_set_of_none (d : ScatterDims s si u) (x : s.Idx → α) (idx : IVec si w) (upd : u.Idx → α)
    (i : s.Idx) (hnone : ∀ j : u.Idx, d.resultIdx? j idx ≠ some i) :
    Host.scatter d (fun _ b => b) x idx upd i = x i := by
  rw [scatter_set_eq_foldl]
  exact foldl_of_none d idx upd i _ x (fun n _ => hnone _)

/-! ## A block of leading columns set into a table -/

/-- The dimension numbers of `x.at[:, z:z+K].set(upd)` for an `[R, C]` table, ONE start index for the column axis, and an
    `[R, K]` update whose two axes are both window axes. -/
abbrev colsDims (R C K : Nat) (wf : ScatterDims.WF ⟨2, ![R, C]⟩ ⟨1, ![1]⟩ ⟨2, ![R, K]⟩ [0, 1] [] [1] 0) :
    ScatterDims ⟨2, ![R, C]⟩ ⟨1, ![1]⟩ ⟨2, ![R, K]⟩ where
  updateWindowDims := [0, 1]
  insertedWindowDims := []
  scatterDimsToOperandDims := [1]
  indexVectorDim := 0
  wf := wf

section Cols

variable {R C K w : Nat} (wf : ScatterDims.WF ⟨2, ![R, C]⟩ ⟨1, ![1]⟩ ⟨2, ![R, K]⟩ [0, 1] [] [1] 0)
  (idx : IVec ⟨1, ![1]⟩ w)

theorem mem_sKept (a : Fin 2) : a ∈ (colsDims R C K wf).sKept := by
  simp [ScatterDims.sKept, Shape.kept, List.mem_filter, List.mem_finRange]

/-- Along the rows the window starts at 0. -/
theorem cstart0 (r : Fin R) (k : Fin K) : (colsDims R C K wf).start (ix2 r k) idx 0 = 0 := by
  unfold ScatterDims.start
  rw [dif_neg (show (0 : Fin 2) ∉ (colsDims R C K wf).scatterDimsToOperandDims from
    fun h => absurd (Fin.val_eq_of_eq (List.mem_singleton.mp h)).symm Nat.one_ne_zero)]

/-- Along the columns it starts at the one index word, read signed. -/
theorem cstart1 (r : Fin R) (k : Fin K) :
    (colsDims R C K wf).start (ix2 r k) idx 1 = (idx (ix1 (0 : Fin 1))).toInt := by
  unfold ScatterDims.start
  rw [dif_pos (show (1 : Fin 2) ∈ (colsDims R C K wf).scatterDimsToOperandDims from List.mem_singleton.mpr rfl)]
  have hsi : (colsDims R C K wf).siIdx (ix2 r k) ⟨List.idxOf (1 : Fin 2) (colsDims R C K wf).scatterDimsToOperandDims,
      List.idxOf_lt_length_iff.2 (List.mem_singleton.mpr rfl)⟩ = ix1 (0 : Fin 1) := by
    funext b; refine Fin.ext ?_
    match b with
    | ⟨0, _⟩ => rfl
  rw [hsi]

/-- The window coordinates are the update's own. -/
theorem cwindow0 (r : Fin R) (k : Fin K) : (colsDims R C K wf).window (ix2 r k) 0 = r.val := by
  unfold ScatterDims.window
  rw [dif_pos (mem_sKept wf 0)]
  rfl

theorem cwindow1 (r : Fin R) (k : Fin K) : (colsDims R C K wf).window (ix2 r k) 1 = k.val := by
  unfold ScatterDims.window
  rw [dif_pos (mem_sKept wf 1)]
  rfl

/-- WHERE AN UPDATE LANDS, the block written at column 0: update entry `(r, k)` lands on table entry `(r', c)` exactly
    when `r = r'` and `k = c` as numbers. -/
theorem clands_iff (hz : (idx (ix1 (0 : Fin 1))).toInt = 0) (hK : K ≤ C) (r : Fin R) (k : Fin K) (r' : Fin R) (c : Fin C) :
    (colsDims R C K wf).resultIdx? (ix2 r k) idx = some (ix2 r' c) ↔ r = r' ∧ k.val = c.val := by
  unfold ScatterDims.resultIdx?
  have hr := r.isLt
  have hk := k.isLt
  constructor
  · intro h
    split at h
    · have hf := Option.some.inj h
      have h0 := congrArg (fun f => (f 0).val) hf
      have h1 := congrArg (fun f => (f 1).val) hf
      simp only [cstart0, cstart1, cwindow0, cwindow1, hz] at h0 h1
      refine ⟨Fin.ext ?_, ?_⟩
      · change ((0 : Int) + ((r.val : Nat) : Int)).toNat = r'.val at h0
        omega
      · change ((0 : Int) + ((k.val : Nat) : Int)).toNat = c.val at h1
        omega
    · exact absurd h (by simp)
  · rintro ⟨rfl, hkc⟩
    have hb : ∀ a : Fin 2, 0 ≤ (colsDims R C K wf).start (ix2 r k) idx a + ((colsDims R C K wf).window (ix2 r k) a : Int)
        ∧ (colsDims R C K wf).start (ix2 r k) idx a + ((colsDims R C K wf).window (ix2 r k) a : Int)
          < ((⟨2, ![R, C]⟩ : Shape).size a : Int) := by
      intro a
      match a with
      | ⟨0, _⟩ =>
        show 0 ≤ (colsDims R C K wf).start (ix2 r k) idx 0 + ((colsDims R C K wf).window (ix2 r k) 0 : Int)
          ∧ (colsDims R C K wf).start (ix2 r k) idx 0 + ((colsDims R C K wf).window (ix2 r k) 0 : Int) < (R : Int)
        rw [cstart0, cwindow0]
        omega
      | ⟨1, _⟩ =>
        show 0 ≤ (colsDims R C K wf).start (ix2 r k) idx 1 + ((colsDims R C K wf).window (ix2 r k) 1 : Int)
          ∧ (colsDims R C K wf).start (ix2 r k) idx 1 + ((colsDims R C K wf).window (ix2 r k) 1 : Int) < (C : Int)
        rw [cstart1, cwindow1, hz]
        omega
    rw [dif_pos hb]
    refine congrArg some (funext fun a => Fin.ext ?_)
    match a with
    | ⟨0, _⟩ =>
      change ((colsDims R C K wf).start (ix2 r k) idx 0 + ((colsDims R C K wf).window (ix2 r k) 0 : Int)).toNat = r.val
      rw [cstart0, cwindow0]
      omega
    | ⟨1, _⟩ =>
      change ((colsDims R C K wf).start (ix2 r k) idx 1 + ((colsDims R C K wf).window (ix2 r k) 1 : Int)).toNat = c.val
      rw [cstart1, cwindow1, hz]
      omega

/-- THE TABLE AFTER THE BLOCK IS SET AT COLUMN 0, read at `(r, c)`: the update's entry in the first `K` columns, the
    table's own value in the others. -/
theorem set_cols_apply (hz : (idx (ix1 (0 : Fin 1))).toInt = 0) (hK : K ≤ C)
    (x : (⟨2, ![R, C]⟩ : Shape).Idx → α) (upd : (⟨2, ![R, K]⟩ : Shape).Idx → α) (r : Fin R) (c : Fin C) :
    Host.scatter (colsDims R C K wf) (fun _ b => b) x idx upd (ix2 r c)
      = if h : c.val < K then upd (ix2 r ⟨c.val, h⟩) else x (ix2 r c) := by
  by_cases h : c.val < K
  · rw [dif_pos h]
    refine scatter_set_of_lands _ x idx upd _ (ix2 r ⟨c.val, h⟩) ((clands_iff wf idx hz hK r ⟨c.val, h⟩ r c).mpr ⟨rfl, rfl⟩)
      fun j' hj' => ?_
    rw [eq_ix2 j'] at hj' ⊢
    obtain ⟨e0, e1⟩ := (clands_iff wf idx hz hK (j' 0) (j' 1) r c).mp hj'
    rw [e0]
    exact congrArg (ix2 r) (Fin.ext e1)
  · rw [dif_neg h]
    refine scatter_set_of_none _ x idx upd _ fun j' hj' => ?_
    rw [eq_ix2 j'] at hj'
    have := ((clands_iff wf idx hz hK (j' 0) (j' 1) r c).mp hj').2
    have := (j' 1).isLt
    omega

end Cols

end Cert.Lib.ScatterSet
-- ==== Proof.RefIndexTable.lean ====
/-
  The index table of the reference's final scatter.

  The table has 8192 rows of two words. Both columns are the column 0, 1, …, 8191: the program adds 8192 to a negative
  entry, and no entry is negative. So row n holds the pair (n, n), and each word read signed is n.
-/
import proofs.«179888_j51350628991246_2_alg».proof.Proof.Gen.ReferenceIdeal.Read

noncomputable section

namespace Cert.RefValue

open Cert.ReferenceIdeal Cert.ReferenceIdeal.Gen Cert.ReferenceIdeal.Read Idealize.ShloMosaic Idealize.ShloMosaic.ValueIdx

variable {F : FTy → Type} [FloatOps F]

/-- A number below 8192, as a 32-bit word read signed, is itself. -/
theorem toInt_ofNat_of_lt (n : Nat) (h : n < 8192) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- Such a word is not negative. -/
theorem slt_zero_of_lt (n : Nat) (h : n < 8192) : IntOp.cmpi .slt (BitVec.ofNat 32 n) 0#32 = 0#1 := by
  unfold IntOp.cmpi
  have : (BitVec.ofNat 32 n).slt 0#32 = false := by
    rw [BitVec.slt_eq_decide, toInt_ofNat_of_lt n h]
    simp
  simp only [this]
  rfl

/-- The column of indices: entry n is the word n (the wrap-around of negative entries never applies). -/
theorem col_apply (j : S8192.Idx) : val_main_v17 (F := F) j = BitVec.ofNat 32 (j 0).val := by
  rw [val_main_v17_apply, val_main_v14_apply, val_main_v12_apply, val_main_v13_apply, val_main_c_apply,
    slt_zero_of_lt _ (j 0).isLt, select_zero]

theorem col'_apply (j : S8192.Idx) : val_main_v22 (F := F) j = BitVec.ofNat 32 (j 0).val := by
  rw [val_main_v22_apply, val_main_v19_apply, val_main_v12_apply, val_main_v18_apply, val_main_c_1_apply,
    slt_zero_of_lt _ (j 0).isLt, select_zero]

/-- THE INDEX TABLE, read at row n and either column: the word n. The table is the two columns side by side. -/
theorem table_apply (n : Fin 8192) (c : Fin 2) : val_main_v25 (F := F) (ix2 n c) = BitVec.ofNat 32 n.val := by
  unfold val_main_v25
  match c with
  | ⟨0, _⟩ =>
    refine (concatenate_pair_apply_left (s₁ := S8192x1) (s₂ := S8192x1) (1 : Fin S8192x2.rank) (val_main_v23 (F := F))
      (val_main_v24 (F := F)) concatenates_S8192x1_S8192x1_S8192x2_d1 (ix2 n (0 : Fin 2)) rfl (ix2 n (0 : Fin 1))
      (fun b => match b with | ⟨0, _⟩ => rfl | ⟨1, _⟩ => rfl)).trans ?_
    rw [val_main_v23_apply, col_apply]
  | ⟨1, _⟩ =>
    refine (concatenate_pair_apply_right (s₁ := S8192x1) (s₂ := S8192x1) (1 : Fin S8192x2.rank) (val_main_v23 (F := F))
      (val_main_v24 (F := F)) concatenates_S8192x1_S8192x1_S8192x2_d1 (ix2 n (1 : Fin 2)) rfl rfl (ix2 n (0 : Fin 1))
      (fun b => match b with | ⟨0, _⟩ => fun _ => rfl | ⟨1, _⟩ => fun h => absurd rfl h) rfl).trans ?_
    rw [val_main_v24_apply, col'_apply]

/-- Read signed, that word is n. -/
theorem table_toInt (n : Fin 8192) (c : Fin 2) : (val_main_v25 (F := F) (ix2 n c)).toInt = (n.val : Int) := by
  rw [table_apply, toInt_ofNat_of_lt _ n.isLt]

end Cert.RefValue

end
-- ==== Proof.RefScatterLands.lean ====
/-
  Where the updates of the reference's final scatter land.

  Update number n reads its start index off row n of the index table, which is (n, n); the window is a single entry. So
  update n lands on the diagonal entry (n, n) of the 8192 x 8192 table: every diagonal entry is hit by exactly one update
  and no other entry is hit at all.
-/
import proofs.«179888_j51350628991246_2_alg».proof.Proof.Gen.ReferenceIdeal.Read
import proofs.«179888_j51350628991246_2_alg».proof.Proof.RefIndexTable

noncomputable section

namespace Cert.RefValue

open Cert.ReferenceIdeal Cert.ReferenceIdeal.Gen Cert.ReferenceIdeal.Read Idealize.ShloMosaic Idealize.ShloMosaic.ValueIdx

variable {F : FTy → Type} [FloatOps F]

/-! ## The scatter's dimension numbers: one start index per update, a window of one entry -/

/-- Along the rows of the table, the window of update n starts at the first word of row n of the index table, read
    signed. -/
theorem start0 {w : Nat} (n : Fin 8192) (idx : IVec S8192x2 w) :
    scatter_S8192x8192_S8192x2_S8192_n_01_01_1.start (ix1 n) idx 0 = (idx (ix2 n (0 : Fin 2))).toInt := by
  unfold ScatterDims.start
  have hm : (0 : Fin S8192x8192.rank) ∈ scatter_S8192x8192_S8192x2_S8192_n_01_01_1.scatterDimsToOperandDims := by decide
  rw [dif_pos hm]
  have hsi : scatter_S8192x8192_S8192x2_S8192_n_01_01_1.siIdx (ix1 n)
      ⟨List.idxOf (0 : Fin S8192x8192.rank) scatter_S8192x8192_S8192x2_S8192_n_01_01_1.scatterDimsToOperandDims,
        List.idxOf_lt_length_iff.2 hm⟩ = ix2 n (0 : Fin 2) := by
    funext b; refine Fin.ext ?_
    match b with
    | ⟨0, _⟩ => rfl
    | ⟨1, _⟩ => rfl
  rw [hsi]

/-- Along the columns, at its second word. -/
theorem start1 {w : Nat} (n : Fin 8192) (idx : IVec S8192x2 w) :
    scatter_S8192x8192_S8192x2_S8192_n_01_01_1.start (ix1 n) idx 1 = (idx (ix2 n (1 : Fin 2))).toInt := by
  unfold ScatterDims.start
  have hm : (1 : Fin S8192x8192.rank) ∈ scatter_S8192x8192_S8192x2_S8192_n_01_01_1.scatterDimsToOperandDims := by decide
  rw [dif_pos hm]
  have hsi : scatter_S8192x8192_S8192x2_S8192_n_01_01_1.siIdx (ix1 n)
      ⟨List.idxOf (1 : Fin S8192x8192.rank) scatter_S8192x8192_S8192x2_S8192_n_01_01_1.scatterDimsToOperandDims,
        List.idxOf_lt_length_iff.2 hm⟩ = ix2 n (1 : Fin 2) := by
    funext b; refine Fin.ext ?_
    match b with
    | ⟨0, _⟩ => rfl
    | ⟨1, _⟩ => rfl
  rw [hsi]

/-- The window is the single entry at its start: both axes of the table are inserted. -/
theorem window0 (n : Fin 8192) : scatter_S8192x8192_S8192x2_S8192_n_01_01_1.window (ix1 n) 0 = 0 := by
  unfold ScatterDims.window
  rw [dif_neg (show ¬(0 : Fin S8192x8192.rank) ∈ scatter_S8192x8192_S8192x2_S8192_n_01_01_1.sKept by decide)]

theorem window1 (n : Fin 8192) : scatter_S8192x8192_S8192x2_S8192_n_01_01_1.window (ix1 n) 1 = 0 := by
  unfold ScatterDims.window
  rw [dif_neg (show ¬(1 : Fin S8192x8192.rank) ∈ scatter_S8192x8192_S8192x2_S8192_n_01_01_1.sKept by decide)]

/-- On either axis, start plus window coordinate of update n is n. -/
theorem start_add_window (n : Fin 8192) (a : Fin S8192x8192.rank) :
    scatter_S8192x8192_S8192x2_S8192_n_01_01_1.start (ix1 n) (val_main_v25 (F := F)) a
      + (scatter_S8192x8192_S8192x2_S8192_n_01_01_1.window (ix1 n) a : Int) = (n.val : Int) := by
  match a with
  | ⟨0, _⟩ =>
    show scatter_S8192x8192_S8192x2_S8192_n_01_01_1.start (ix1 n) (val_main_v25 (F := F)) 0
      + (scatter_S8192x8192_S8192x2_S8192_n_01_01_1.window (ix1 n) 0 : Int) = (n.val : Int)
    rw [start0, window0, table_toInt]; omega
  | ⟨1, _⟩ =>
    show scatter_S8192x8192_S8192x2_S8192_n_01_01_1.start (ix1 n) (val_main_v25 (F := F)) 1
      + (scatter_S8192x8192_S8192x2_S8192_n_01_01_1.window (ix1 n) 1 : Int) = (n.val : Int)
    rw [start1, window1, table_toInt]; omega

/-- Both coordinates of the diagonal index (n, n) are n. -/
theorem ix2_diag_val (n : Fin 8192) (a : Fin S8192x8192.rank) : ((ix2 n n : S8192x8192.Idx) a).val = n.val := by
  match a with
  | ⟨0, _⟩ => rfl
  | ⟨1, _⟩ => rfl

/-- WHERE AN UPDATE LANDS: update n lands on the diagonal entry (n, n). -/
theorem lands (n : Fin 8192) :
    scatter_S8192x8192_S8192x2_S8192_n_01_01_1.resultIdx? (ix1 n) (val_main_v25 (F := F)) = some (ix2 n n) := by
  unfold ScatterDims.resultIdx?
  have hn : n.val < 8192 := n.isLt
  have hb : ∀ a : Fin S8192x8192.rank,
      0 ≤ scatter_S8192x8192_S8192x2_S8192_n_01_01_1.start (ix1 n) (val_main_v25 (F := F)) a
        + (scatter_S8192x8192_S8192x2_S8192_n_01_01_1.window (ix1 n) a : Int)
      ∧ scatter_S8192x8192_S8192x2_S8192_n_01_01_1.start (ix1 n) (val_main_v25 (F := F)) a
        + (scatter_S8192x8192_S8192x2_S8192_n_01_01_1.window (ix1 n) a : Int) < (S8192x8192.size a : Int) := by
    intro a
    rw [start_add_window]
    match a with
    | ⟨0, _⟩ => show (0 : Int) ≤ _ ∧ _ < ((8192 : Nat) : Int); omega
    | ⟨1, _⟩ => show (0 : Int) ≤ _ ∧ _ < ((8192 : Nat) : Int); omega
  rw [dif_pos hb]
  have e : ∀ a : Fin S8192x8192.rank,
      (scatter_S8192x8192_S8192x2_S8192_n_01_01_1.start (ix1 n) (val_main_v25 (F := F)) a
        + (scatter_S8192x8192_S8192x2_S8192_n_01_01_1.window (ix1 n) a : Int)).toNat = ((ix2 n n) a).val := by
    intro a
    rw [start_add_window, ix2_diag_val]; omega
  exact congrArg some (funext fun a => Fin.ext (e a))

/-- So an update that lands on entry (r, c) is update r, and the entry is on the diagonal. -/
theorem lands_only (j : S8192.Idx) (r c : Fin 8192)
    (h : scatter_S8192x8192_S8192x2_S8192_n_01_01_1.resultIdx? j (val_main_v25 (F := F)) = some (ix2 r c)) :
    j = ix1 r ∧ r = c := by
  obtain ⟨n, rfl⟩ : ∃ n : Fin 8192, j = ix1 n := ⟨j 0, eq_ix1 j⟩
  have e : ix2 n n = ix2 r c := Option.some.inj ((lands (F := F) n).symm.trans h)
  have e0 : n = r := congrFun e 0
  have e1 : n = c := congrFun e 1
  exact ⟨by rw [e0], e0.symm.trans e1⟩

end Cert.RefValue

end
-- ==== Proof.RefTables.lean ====
/-
  The two tables the reference's final scatter combines, entry by entry over the extended reals.

  The table written INTO is the weighted Gram matrix: entry (r, c) is sum_k (x[r,k] * ck[k]) * x[c,k].
  The updates are, for each row r, softplus(z) + eps at z = sum_k x[r,k] * vk[k] + vb: the program's softplus is the
  stable form max(z, 0) + log(1 + exp(-|z - 0|)), guarded by a select on "z - 0 differs from itself", which never
  holds, so the guarded branch is never taken.
-/
import proofs.«179888_j51350628991246_2_alg».proof.Proof.Gen.ReferenceIdeal.Read
import proofs.«179888_j51350628991246_2_alg».proof.Proof.Spec
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.ValueIdx

/-- THE GRAM TABLE at entry (r, c). -/
theorem gram_apply (x0 : FVec Ideal S8192x512 .f32) (x1 : FVec Ideal S512 .f32) (r c : Fin 8192) :
    val_main_v3 (F := Ideal) x0 x1 (ix2 r c) = Cert.CovSpec.gram x0 x1 r c := by
  rw [val_main_v3_apply]
  unfold Cert.CovSpec.gram
  refine Finset.sum_congr rfl fun k _ => ?_
  have el : lidx_main_v3 (ix2 r c) k = ix2 r k := funext fun a => Fin.ext (by
    match a with
    | ⟨0, _⟩ => rfl
    | ⟨1, _⟩ => rfl)
  have er : ridx_main_v3 (ix2 r c) k = ix2 c k := funext fun a => Fin.ext (by
    match a with
    | ⟨0, _⟩ => rfl
    | ⟨1, _⟩ => rfl)
  have ek : idx_main_v0 (idx_main_v1 (ix2 r k)) = ix1 k := funext fun a => Fin.ext (by
    match a with
    | ⟨0, _⟩ => rfl)
  rw [el, er, val_main_v2_apply, val_main_v1_apply, val_main_v0_apply, ek]
  rfl

/-- The affine form of row r, as the program computes it. -/
theorem lin_apply (x0 : FVec Ideal S8192x512 .f32) (x2 : FVec Ideal S512x1 .f32) (x3 : FVec Ideal S1 .f32) (r : Fin 8192) :
    val_main_v7 (F := Ideal) x0 x2 x3 (ix2 r (0 : Fin 1)) = Cert.CovSpec.lin x0 x2 x3 r := by
  rw [val_main_v7_apply, val_main_v4_apply, val_main_v6_apply, val_main_v5_apply]
  unfold Cert.CovSpec.lin
  have e3 : idx_main_v5 (idx_main_v6 (ix2 r (0 : Fin 1))) = ix1 (0 : Fin 1) := funext fun a => Fin.ext (by
    match a with
    | ⟨0, _⟩ => rfl)
  rw [e3]
  refine congrArg (· + x3 (ix1 (0 : Fin 1))) (Finset.sum_congr rfl fun k _ => ?_)
  have el : lidx_main_v4 (ix2 r (0 : Fin 1)) k = ix2 r k := funext fun a => Fin.ext (by
    match a with
    | ⟨0, _⟩ => rfl
    | ⟨1, _⟩ => rfl)
  have er : ridx_main_v4 (ix2 r (0 : Fin 1)) k = ix2 k (0 : Fin 1) := funext fun a => Fin.ext (by
    match a with
    | ⟨0, _⟩ => rfl
    | ⟨1, _⟩ => rfl)
  rw [el, er]

/-- An extended real does not differ from itself. -/
theorem cmp_une_self (a : EReal) : Ideal.cmp .une a a = 0#1 := by
  simp [Ideal.cmp]

/-- The program's softplus plus the small constant, at one entry, is the stable softplus of the affine form there. -/
theorem softplus_apply (x0 : FVec Ideal S8192x512 .f32) (x2 : FVec Ideal S512x1 .f32) (x3 : FVec Ideal S1 .f32)
    (i : S8192x1.Idx) :
    val_main_v10 (F := Ideal) x0 x2 x3 i = Cert.CovSpec.softplusEps (val_main_v7 (F := Ideal) x0 x2 x3 i) := by
  rw [val_main_v10_apply, val_main_v8_apply, val_main_call0_v4_apply, val_main_call0_v11_apply, val_main_call0_v1_apply,
    val_main_call0_v10_apply, val_main_call0_v9_apply, val_main_call0_v8_apply, val_main_call0_v7_apply,
    val_main_call0_v3_apply, val_main_call0_v2_apply, val_main_call0_v0_apply, val_main_call0_cst_apply,
    val_main_v9_apply, val_main_cst_apply]
  generalize val_main_v7 (F := Ideal) x0 x2 x3 i = z
  simp only [Ideal.ofBits_def, Ideal.ofBits_zero_f32, Ideal.subf_def, Ideal.addf_def, Ideal.maximumf_def,
    Ideal.hostUnary_exp_def, Ideal.hostUnary_log1p_def, Ideal.hostNegf_def, Ideal.negf_def, Ideal.hostAbsf_def,
    Ideal.absf_def, Ideal.cmpf_def, Cert.CovSpec.sub_zero_eq, cmp_une_self, select_zero]
  rfl

/-- THE UPDATES at entry r. -/
theorem diag_apply (x0 : FVec Ideal S8192x512 .f32) (x2 : FVec Ideal S512x1 .f32) (x3 : FVec Ideal S1 .f32) (r : Fin 8192) :
    val_main_v11 (F := Ideal) x0 x2 x3 (ix1 r) = Cert.CovSpec.softplusEps (Cert.CovSpec.lin x0 x2 x3 r) := by
  have e : idx_main_v11 (ix1 r) = ix2 r (0 : Fin 1) := funext fun a => Fin.ext (by
    match a with
    | ⟨0, _⟩ => exact Nat.div_one _
    | ⟨1, _⟩ => rfl)
  rw [val_main_v11_apply, e, softplus_apply, lin_apply]

end Cert.RefValue

end
-- ==== Proof.RefIsSpec.lean ====
/-
  The reference computes the specified matrix.

  The reference's last operation writes the row-by-row softplus values into the weighted Gram matrix at the places an
  index table names. Update r lands on the diagonal entry (r, r) and nowhere else, and no two updates land on the same
  entry: so the diagonal entry (r, r) of the result is update r, the softplus of row r's affine form plus the small
  constant, and every other entry is the Gram matrix's own.
-/
import proofs.«179888_j51350628991246_2_alg».proof.Proof.Gen.ReferenceIdeal.Read
import proofs.«179888_j51350628991246_2_alg».proof.Proof.Spec
import proofs.«179888_j51350628991246_2_alg».proof.Proof.LibScatterSet
import proofs.«179888_j51350628991246_2_alg».proof.Proof.RefScatterLands
import proofs.«179888_j51350628991246_2_alg».proof.Proof.RefTables

noncomputable section

namespace Cert.RefValue

open Cert.ReferenceIdeal Cert.ReferenceIdeal.Gen Cert.ReferenceIdeal.Read Idealize.ShloMosaic Idealize.ShloMosaic.ValueIdx

/-- The reference's result on the diagonal: the update of that row. -/
theorem ref_diag (x0 : FVec Ideal S8192x512 .f32) (x1 : FVec Ideal S512 .f32) (x2 : FVec Ideal S512x1 .f32)
    (x3 : FVec Ideal S1 .f32) (r : Fin 8192) :
    val_main_v26 (F := Ideal) x0 x1 x2 x3 (ix2 r r) = Cert.CovSpec.softplusEps (Cert.CovSpec.lin x0 x2 x3 r) := by
  unfold val_main_v26
  rw [Cert.Lib.ScatterSet.scatter_set_of_lands scatter_S8192x8192_S8192x2_S8192_n_01_01_1 _ _ _ (ix2 r r) (ix1 r)
    (lands (F := Ideal) r) (fun j' hj' => (lands_only (F := Ideal) j' r r hj').1), diag_apply]

/-- The reference's result off the diagonal: the Gram matrix's entry. -/
theorem ref_off (x0 : FVec Ideal S8192x512 .f32) (x1 : FVec Ideal S512 .f32) (x2 : FVec Ideal S512x1 .f32)
    (x3 : FVec Ideal S1 .f32) (r c : Fin 8192) (h : r.val ≠ c.val) :
    val_main_v26 (F := Ideal) x0 x1 x2 x3 (ix2 r c) = Cert.CovSpec.gram x0 x1 r c := by
  unfold val_main_v26
  rw [Cert.Lib.ScatterSet.scatter_set_of_none scatter_S8192x8192_S8192x2_S8192_n_01_01_1 _ _ _ (ix2 r c)
    (fun j' hj' => h (congrArg Fin.val (lands_only (F := Ideal) j' r c hj').2)), gram_apply]

/-- THE REFERENCE IS THE SPECIFICATION. -/
theorem ref_is_spec (x0 : FVec Ideal S8192x512 .f32) (x1 : FVec Ideal S512 .f32) (x2 : FVec Ideal S512x1 .f32)
    (x3 : FVec Ideal S1 .f32) :
    val_main_v26 (F := Ideal) x0 x1 x2 x3 = Cert.CovSpec.result x0 x1 x2 x3 := by
  funext i
  obtain ⟨r, c, rfl⟩ : ∃ (r c : Fin 8192), i = ix2 r c := ⟨i 0, i 1, eq_ix2 i⟩
  by_cases h : r.val = c.val
  · obtain rfl : r = c := Fin.ext h
    rw [ref_diag, Cert.CovSpec.result_diag]
  · rw [ref_off x0 x1 x2 x3 r c h, Cert.CovSpec.result_off x0 x1 x2 x3 r c h]

end Cert.RefValue

end
-- ==== Proof.lean ====
/-
  A weighted Gram matrix with a softplus diagonal: the tiled kernel against the plain reference.

  For a data matrix x (8192 rows of 512 features), feature weights ck, a direction vk and an offset vb, both programs
  compute the 8192 x 8192 matrix whose entry (r, c) off the diagonal is  sum_k (x[r,k] * ck[k]) * x[c,k]  and whose
  diagonal entry (r, r) is  softplus(sum_k x[r,k] * vk[k] + vb) + eps  (Proof/Spec.lean).

  The kernel walks an 8 x 8 grid of 1024 x 1024 blocks. At each point it multiplies a weighted row block by a column block
  on the matrix unit (the factors narrowed to a shorter float format first, which changes nothing over the extended
  reals) and stores the block; on the eight diagonal points it first replaces the block's own diagonal by the softplus
  column, computed by a lane sum and pointwise operations. The reference forms the whole product by one contraction, the
  whole softplus column by another, and sets the diagonal by a scatter whose n-th update lands on entry (n, n).

  Over the extended reals the two agree entry by entry: both sides are finite sums of the same products in some order, and
  the same pointwise chain after the same affine form; no law that fails at the infinities is used, so the finiteness of
  the inputs is never opened. The three frames (each program runs to the end, faults nowhere, leaves its arguments alone)
  come from running the kernel's body symbolically at a generic grid point, on and off the diagonal (Proof/BodyBits.lean at
  the word level, Proof/BodyIdeal.lean over the extended reals), and from the reference's run read back. Nothing was
  rewritten on the way from the word-level kernel to its reading over the extended reals, so that conjunct is trivial.
-/
import proofs.«179888_j51350628991246_2_alg».proof.Defs
import proofs.«179888_j51350628991246_2_alg».proof.Proof.Gen.Kernel
import proofs.«179888_j51350628991246_2_alg».proof.Proof.Gen.KernelIdeal
import proofs.«179888_j51350628991246_2_alg».proof.Proof.Gen.ReferenceIdeal
import proofs.«179888_j51350628991246_2_alg».proof.Proof.Gen.Pre_finite_inputs
import proofs.«179888_j51350628991246_2_alg».proof.Proof.Gen.ReferenceIdeal.Run
import proofs.«179888_j51350628991246_2_alg».proof.Proof.Gen.ReferenceIdeal.Read
import proofs.«179888_j51350628991246_2_alg».proof.Proof.BodyBits
import proofs.«179888_j51350628991246_2_alg».proof.Proof.KernelValue
import proofs.«179888_j51350628991246_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as it found them. -/
theorem frame_kernel : Cert.frame_Kernel (hKernel := Cert.Kernel.Gen.facts) (hPre_finite_inputs := Cert.Pre_finite_inputs.Gen.facts) :=
  fun m ρ _ => Cert.Kernel.Body.frame m ρ

/-- So does the kernel read over the extended reals. -/
theorem frame_kernel_ideal : Cert.frame_KernelIdeal (hKernelIdeal := Cert.KernelIdeal.Gen.facts) (hPre_finite_inputs := Cert.Pre_finite_inputs.Gen.facts) :=
  fun m ρ _ => Cert.KernelIdeal.Body.frame m ρ

/-- So does the reference: its run read back, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Nothing was rewritten between the word-level kernel and its reading over the extended reals. -/
theorem preserves : Cert.preserves_Kernel_KernelIdeal := trivial

/-- From memories that agree on the four arguments the kernel's output array and the reference's result both end at the
    specified matrix of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.spec m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v26_eq _ _ _ _).trans ((Cert.RefValue.ref_is_spec _ _ _ _).trans ?_)
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
